-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S64x64 : Shape := ⟨2, ![64, 64]⟩
abbrev S64 : Shape := ⟨1, ![64]⟩
abbrev S2x800000 : Shape := ⟨2, ![2, 800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x64 .f32) (main_arg1 : FVec F S64x64 .f32) (main_arg2 : FVec F S64 .f32) (main_arg3 : FVec F S64x64 .f32) (main_arg4 : FVec F S64 .f32) (main_arg5 : IVec S2x800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S50000x64 : Shape := ⟨2, ![50000, 64]⟩
abbrev S64x64 : Shape := ⟨2, ![64, 64]⟩
abbrev S64 : Shape := ⟨1, ![64]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x64 : Shape := ⟨2, ![2000, 64]⟩
abbrev S850000x64 : Shape := ⟨2, ![850000, 64]⟩
abbrev S1x64 : Shape := ⟨2, ![1, 64]⟩

abbrev nBuf : Space → Nat
  | .hbm => 83
  | .vmem => 16
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S2x800000, .i32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x64, .f32⟩
  | .hbm, ⟨47, _⟩ => ⟨S850000x1, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x64, .f32⟩
  | .hbm, ⟨57, _⟩ => ⟨S850000x64, .f32⟩
  | .hbm, ⟨58, _⟩ => ⟨S850000x64, .f32⟩
  | .hbm, ⟨59, _⟩ => ⟨S_, .f32⟩
  | .hbm, ⟨60, _⟩ => ⟨S50000x64, .f32⟩
  | .hbm, ⟨61, _⟩ => ⟨S850000x1, .i32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S850000x1, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x64, .f32⟩
  | .hbm, ⟨75, _⟩ => ⟨S850000x64, .f32⟩
  | .hbm, ⟨76, _⟩ => ⟨S850000x64, .f32⟩
  | .hbm, ⟨77, _⟩ => ⟨S_, .f32⟩
  | .hbm, ⟨78, _⟩ => ⟨S50000x64, .f32⟩
  | .hbm, ⟨79, _⟩ => ⟨S850000x1, .i32⟩
  | .hbm, ⟨80, _⟩ => ⟨S50000x64, .f32⟩
  | .hbm, ⟨81, _⟩ => ⟨S1x64, .f32⟩
  | .hbm, ⟨82, _⟩ => ⟨S50000x64, .f32⟩
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S64x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S1x64, .f32⟩
  | .local _ .vmem, ⟨14, _⟩ => ⟨S2000x64, .f32⟩
  | .local _ .vmem, ⟨15, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x64_S64x64_S2000x64_1_0_0_1_n_n_wf : DotDims.WF S2000x64 S64x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .f32 = 32 ∨ (Rect.block (s := S50000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x64 : Shape := ⟨2, ![50000, 64]⟩
abbrev S64x64 : Shape := ⟨2, ![64, 64]⟩
abbrev S64 : Shape := ⟨1, ![64]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S2x800000, .i32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x64, .f32⟩
  | .hbm, ⟨47, _⟩ => ⟨S850000x1, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x64, .f32⟩
  | .hbm, ⟨57, _⟩ => ⟨S850000x64, .f32⟩
  | .hbm, ⟨58, _⟩ => ⟨S850000x64, .f32⟩
  | .hbm, ⟨59, _⟩ => ⟨S_, .f32⟩
  | .hbm, ⟨60, _⟩ => ⟨S50000x64, .f32⟩
  | .hbm, ⟨61, _⟩ => ⟨S850000x1, .i32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S50000x64, .f32⟩
  | .hbm, ⟨66, _⟩ => ⟨S_, .f32⟩
  | .hbm, ⟨67, _⟩ => ⟨S50000x64, .f32⟩
  | .hbm, ⟨68, _⟩ => ⟨S50000x64, .f32⟩
  | .hbm, ⟨69, _⟩ => ⟨S50000x64, .f32⟩
  | .hbm, ⟨70, _⟩ => ⟨S850000x1, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x64, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | .hbm, ⟨89, _⟩ => ⟨S_, .f32⟩
  | .hbm, ⟨90, _⟩ => ⟨S50000x64, .f32⟩
  | .hbm, ⟨91, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_v65 : Ref sig .tc := ⟨.hbm, 91, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.LibPlainDot.lean ====
/-
  A plain matrix product's contraction, re-indexed by the contracted coordinate.

  A contraction record over `[M, K] × [K, N] → [M, N]` with ONE contracted axis sums over indices of a
  rank-one shape; what a value proof wants is the sum over `k : Fin K` of the left operand at `(row, k)`
  times the right at `(k, column)`. The record enters only through six facts, each decidable at a literal
  record: its contraction shape has rank one and extent `K`, and the operand index at an output index and a
  contraction index has the expected coordinates.
-/
import Idealize.ShloMosaic.PureOps.Ideal.Laws
import Idealize.ShloMosaic.Lib.ValueIdx

noncomputable section

namespace Cert.Lib.PlainDot

open Idealize.ShloMosaic Idealize.ShloMosaic.ValueIdx

/-- The sum over a one-axis contraction, as the sum over `k : Fin K` of left `(j 0, k)` times right `(k, j 1)`. -/
theorem sum_rows_cols {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact hl0 _ _
    | ⟨1, _⟩ => exact (hl1 _ _).trans hk)
  have er : D.rhsIdx j ((contrEquiv1 D K hr hs).symm k) = ix2 k (j 1) := funext fun a => Fin.ext (by
    match a with
    | ⟨0, _⟩ => exact (hr0 _ _).trans hk
    | ⟨1, _⟩ => exact hr1 _ _)
  exact congrArg₂ (· * ·) (congrArg l el) (congrArg r er)

end Cert.Lib.PlainDot

end
-- ==== Proof.LibMatProd.lean ====
/-
  A plain matrix product, and the two operations that compute it.

  `prod l r` is rows times columns: entry `(i, j)` is the sum over `k : Fin K` of `l (i, k) * r (k, j)` on the
  extended reals. Both a kernel's `tpu.matmul` into a ZERO accumulator and the host's `dot_general`, over a
  contraction record for `[M, K] × [K, N] → [M, N]` with one contracted axis, are that function at the ideal
  values (the accumulator adds zero; the host's product has none). The record enters through the same six
  facts as `Cert.Lib.PlainDot.sum_rows_cols`, each by computation at a literal record. The operands' float
  formats are free: at the ideal values a change of format is the identity, so a product fed rounded operands
  is the product of the operands.

  Reading a product of a BLOCK of rows: entry `(p, q)` of `prod` of rows `T·B … T·B + B − 1` of `l` with the
  right operand is entry `(T·B + p, q)` of `prod l r` (`prod_rows`), which is what makes a product computed
  block of rows by block of rows the whole product.
-/
import Idealize.ShloMosaic.PureOps.Ideal.Laws
import Idealize.ShloMosaic.Lib.ValueIdx
import proofs.«181508_j91216515432980_1_alg».proof.Proof.LibPlainDot

noncomputable section

namespace Cert.Lib.MatProd

open Idealize.ShloMosaic Idealize.ShloMosaic.ValueIdx

/-- Rows times columns, on the extended reals. -/
def prod {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem prod_apply {M K N : ℕ} (l : (⟨2, ![M, K]⟩ : Shape).Idx → EReal) (r : (⟨2, ![K, N]⟩ : Shape).Idx → EReal)
    (i : Fin M) (j : Fin N) : prod l r (ix2 i j) = ∑ k : Fin K, l (ix2 i k) * r (ix2 k j) := rfl

/-- The host's `dot_general` over a one-axis contraction record is `prod`. -/
theorem dotGeneral_eq_prod {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    Host.dotGeneral D prec l r = prod l r :=
  funext fun j => (Ideal.dotGeneral_apply D prec .single l r j).trans
    (Cert.Lib.PlainDot.sum_rows_cols D hr hs hl0 hl1 hr0 hr1 l r j)

/-- A kernel's `tpu.matmul` into the zero accumulator, over a one-axis contraction record, is `prod`. -/
theorem matmul_zero_eq_prod {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    matmul D prec l r (constant (F := Ideal) ⟨2, ![M, N]⟩ .f32 0x00000000#32) = prod l r :=
  funext fun j => (Ideal.matmul_constant_zero_apply D prec l r j).trans
    (Cert.Lib.PlainDot.sum_rows_cols D hr hs hl0 hl1 hr0 hr1 l r j)

/-- The product of a block of `B` rows of `l`, starting at row `T * B`, read at `(p, q)`, is the whole product at
    `(T * B + p, q)`: `lb` holds those rows (`hl`) and `rb` holds column `q` of the right operand (`hr`). -/
theorem prod_rows {M K N B : ℕ} (l : (⟨2, ![M, K]⟩ : Shape).Idx → EReal) (r : (⟨2, ![K, N]⟩ : Shape).Idx → EReal)
    (lb : (⟨2, ![B, K]⟩ : Shape).Idx → EReal) (rb : (⟨2, ![K, N]⟩ : Shape).Idx → EReal)
    (T : ℕ) (p : Fin B) (q : Fin N) (h : T * B + p.val < M)
    (hl : ∀ k : Fin K, lb (ix2 p k) = l (ix2 ⟨T * B + p.val, h⟩ k))
    (hr : ∀ k : Fin K, rb (ix2 k q) = r (ix2 k q)) :
    prod lb rb (ix2 p q) = prod l r (ix2 ⟨T * B + p.val, h⟩ q) :=
  Finset.sum_congr rfl fun k _ => by
    show lb (ix2 p k) * rb (ix2 k q) = l (ix2 ⟨T * B + p.val, h⟩ k) * r (ix2 k q)
    rw [hl k, hr k]

end Cert.Lib.MatProd

end
-- ==== Proof.LibDenseLayer.lean ====
/-
  One dense layer read at an entry, on a kernel's side and on the host's.

  A dense layer is a matrix product plus a bias. A kernel body prints it as a `tpu.matmul` into a zero accumulator
  with a one-row bias array `[1, N]` broadcast over the rows; jax on the host prints the bias as a vector `[N]`
  placed as the one row of `[1, N]` and that row repeated over the rows (two `broadcast_in_dim`s). At the extended
  reals both read, at `(p, c)`, the sum over the contracted coordinate of left `(p, k)` times right `(k, c)`, plus
  the bias at `c`. The matrix product's part is `Cert.Lib.PlainDot.sum_rows_cols` (this file imports that one; a
  host `dot_general` is that lemma after `Ideal.dotGeneral_apply`). Imports only the Idealize library besides.
-/
import proofs.«181508_j91216515432980_1_alg».proof.Proof.LibPlainDot
import Idealize.ShloMosaic.Lib.ValueLayout
import Idealize.ShloMosaic.Lib.Pipeline.Value
import Idealize.ShloMosaic.Lib.ValueIdx
import Idealize.ShloMosaic.PureOps.Ideal.Laws

noncomputable section

namespace Cert.Lib.DenseLayer

open Idealize.ShloMosaic Idealize.ShloMosaic.ValueIdx

/-! ## A kernel's layer: matmul into zero plus a broadcast bias row -/

/-- A matmul of `[M, K]` by `[K, N]` into the zero accumulator, plus a `[1, N]` row broadcast over the `M` rows,
    read at `(p, c)`: the sum over the contracted coordinate of left `(p, k)` times right `(k, c)`, plus the row's
    entry at `c`. The contraction record enters through the six facts of a plain matrix product. -/
theorem layer_apply {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    {φ₁ φ₂ : FTy} (L : FVec Ideal ⟨2, ![M, K]⟩ φ₁) (R : FVec Ideal ⟨2, ![K, N]⟩ φ₂)
    (b : FVec Ideal ⟨2, ![1, N]⟩ .f32) (hb : (⟨2, ![1, N]⟩ : Shape).Broadcasts ⟨2, ![M, N]⟩) (p : Fin M) (c : Fin N) :
    addf (matmul D none L R (constant (F := Ideal) ⟨2, ![M, N]⟩ .f32 0x00000000#32)) (broadcastTo ⟨2, ![M, N]⟩ b hb) (ix2 p c)
      = (∑ k : Fin K, L (ix2 p k) * R (ix2 k c)) + b (ix2 (0 : Fin 1) c) := by
  rw [addf_apply, broadcastTo_1b_ab_apply]
  simp only [matmul]
  rw [Ideal.matmul_constant_zero_apply]
  exact congrArg (· + b (ix2 (0 : Fin 1) c)) (Cert.Lib.PlainDot.sum_rows_cols D hr hs hl0 hl1 hr0 hr1 L R (ix2 p c))

/-! ## The host's bias: a vector broadcast over the rows in two steps -/

/-- A vector `[N]` placed as the one row of `[1, N]` and that row repeated over `M` rows reads, at `(r, k)`, the
    vector at `k` (for `N ≠ 1`: a unit axis would be read at `0`, which is the same entry, but the library's
    lemma asks which case it is). -/
theorem bias_apply {α : Type} {M N : ℕ} (hN : N ≠ 1) (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (k : Fin N) :
    broadcastInDim ⟨2, ![M, N]⟩ ![0, 1] h2 (broadcastInDim ⟨2, ![1, N]⟩ ![1] h1 b) (ix2 r k) = b (ix1 k) :=
  (broadcastInDim_apply ![0, 1] h2 _ (ix2 r k) (ix2 (⟨0, Nat.one_pos⟩ : Fin 1) k) (fun a => match a with
      | ⟨0, _⟩ => by show (0 : ℕ) = if (1 : ℕ) = 1 then 0 else r.val; rw [if_pos rfl]
      | ⟨1, _⟩ => by show k.val = if N = 1 then 0 else k.val; rw [if_neg hN])).trans
    (broadcastInDim_apply ![1] h1 b (ix2 (⟨0, Nat.one_pos⟩ : Fin 1) k) (ix1 k) (fun a => match a with
      | ⟨0, _⟩ => by show k.val = if N = 1 then 0 else k.val; rw [if_neg hN]))

end Cert.Lib.DenseLayer

end
-- ==== Proof.LibBiasRelu.lean ====
/-
  A bias added along the last axis and the result clamped below at zero, read at an entry.

  `biasRelu a b` is the function `(r, k) ↦ max (a (r, k) + b k) 0` on the extended reals, for a matrix `a : [M, N]` and a
  vector `b : [N]` (the zero is kept as the float word `0x00000000` read at the ideal values, the same word on every
  side, so it is never evaluated). Two programs compute it:
  · a kernel body that casts the bias vector `[N]` to the row `[1, N]`, broadcasts the row over the `M` rows, adds,
    and takes `arith.maximumf` with a splat scalar zero (`kernel_apply`, read at `(p, q)`);
  · the host's `jnp` form, the bias vector placed as the one row of `[1, N]` and repeated over the rows by two
    `broadcast_in_dim`s, an add, and a `maximum` with a scalar zero broadcast to `[M, N]` (`host_eq`, as whole
    functions; for `N ≠ 1`, as the library's broadcast lemma asks which case it is).
  The host's bias broadcast is `Cert.Lib.DenseLayer.bias_apply` (this file imports that one, and through it the plain
  matrix product's file). Imports only the Idealize library besides.
-/
import proofs.«181508_j91216515432980_1_alg».proof.Proof.LibDenseLayer
import Idealize.ShloMosaic.Lib.ValueLayout
import Idealize.ShloMosaic.Lib.Pipeline.Value
import Idealize.ShloMosaic.Lib.ValueIdx
import Idealize.ShloMosaic.PureOps.Ideal.Laws

noncomputable section

namespace Cert.Lib.BiasRelu

open Idealize.ShloMosaic Idealize.ShloMosaic.ValueIdx

/-- `(r, k) ↦ max (a (r, k) + b k) 0` on the extended reals. -/
def biasRelu {M N : ℕ} (a : (⟨2, ![M, N]⟩ : Shape).Idx → EReal) (b : (⟨1, ![N]⟩ : Shape).Idx → EReal) :
    (⟨2, ![M, N]⟩ : Shape).Idx → EReal :=
  fun i => max (a i + b (ix1 (i 1))) (Ideal.ofBits .f32 0x00000000#32)

theorem biasRelu_apply {M N : ℕ} (a : (⟨2, ![M, N]⟩ : Shape).Idx → EReal) (b : (⟨1, ![N]⟩ : Shape).Idx → EReal)
    (p : Fin M) (q : Fin N) :
    biasRelu a b (ix2 p q) = max (a (ix2 p q) + b (ix1 q)) (Ideal.ofBits .f32 0x00000000#32) := rfl

/-- A kernel's form read at `(p, q)`: the bias vector cast to a row, the row broadcast over the rows, an add, and the
    maximum with a splat zero. -/
theorem kernel_apply {M N : ℕ} (x0 : FVec Ideal ⟨2, ![M, N]⟩ .f32) (x1 : FVec Ideal ⟨1, ![N]⟩ .f32)
    (h0 : (⟨2, ![M, N]⟩ : Shape).ShapeCasts ⟨2, ![M, N]⟩) (h1 : (⟨1, ![N]⟩ : Shape).ShapeCasts ⟨2, ![1, N]⟩)
    (h2 : (⟨2, ![1, N]⟩ : Shape).Broadcasts ⟨2, ![M, N]⟩) (p : Fin M) (q : Fin N) :
    maximumf (addf (shapeCast ⟨2, ![M, N]⟩ x0 h0) (broadcastTo ⟨2, ![M, N]⟩ (shapeCast ⟨2, ![1, N]⟩ x1 h1) h2))
        (broadcast ⟨2, ![M, N]⟩ (Scalar.ofBits (F := Ideal) .f32 0x00000000#32)) (ix2 p q)
      = biasRelu x0 x1 (ix2 p q) := by
  rw [maximumf_apply, addf_apply, shapeCast_self, broadcastTo_1b_ab_apply, shapeCast_a_1a_apply, broadcast_apply]
  rfl

/-- The host's form, as a whole function: two `broadcast_in_dim`s of the bias, an add, and the maximum with a scalar
    zero broadcast to the matrix's shape. -/
theorem host_eq {M N : ℕ} (hN : N ≠ 1) (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf a (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = biasRelu a b := by
  funext i
  obtain ⟨p, q, rfl⟩ : ∃ (p : Fin M) (q : Fin N), i = ix2 p q := ⟨i 0, i 1, eq_ix2 i⟩
  rw [maximumf_apply, addf_apply, Cert.Lib.DenseLayer.bias_apply hN,
    broadcastInDim_apply ![] h0 _ (ix2 p q) ix0 (fun a => a.elim0), constant_apply]
  rfl

end Cert.Lib.BiasRelu

end
-- ==== Proof.Spec.lean ====
/-
  Two graph-convolution layers, as ONE function of the six argument arrays.

  The edge list `ei : [2, 800000]` gives 800000 edges; every node gets a self loop, so there are 850000 (source, target)
  pairs: `srcs` and `tgts`. The degree of a node is the number of pairs that target it, `dinv` its inverse square root
  (zero where the degree is not positive), and the coefficient of pair `e` is `dinv (source e) * dinv (target e)`:
  `coef`. One propagation step `spread` gathers the rows of a node-feature matrix `h : [50000, 64]` at the sources,
  scales row `e` by its coefficient, and adds it into the row of its target. A layer multiplies the features by a weight
  matrix, propagates, adds a bias along the feature axis and clamps below at zero; the result is two layers.

  `srcs`, `tgts`, `coef` and `spread` are written with the host operations themselves (over any float
  interpretation) and are never opened: both programs apply these same operations, so only the matrix product and
  the bias-and-clamp step around them have to be compared. `hostLayer` is a layer in the host's spelling
  (`dot_general`, the bias vector broadcast in two steps, `maximum` with a broadcast zero); `layer` is the same at the
  ideal values over the plain matrix product and `biasRelu`.
-/
import proofs.«181508_j91216515432980_1_alg».proof.Proof.Gen.ReferenceIdeal
import proofs.«181508_j91216515432980_1_alg».proof.Proof.LibMatProd
import proofs.«181508_j91216515432980_1_alg».proof.Proof.LibBiasRelu

noncomputable section

namespace Cert.Gcn

open Idealize.ShloMosaic Cert.ReferenceIdeal Cert.ReferenceIdeal.Gen
open Cert.Lib.MatProd Cert.Lib.BiasRelu

section AnyFloats
variable {F : FTy → Type} [FloatOps F]

/-- The sources of the 850000 pairs: row 0 of the edge list, then the nodes themselves. -/
def srcs (ei : (⟨S2x800000, .i32⟩ : BufTy).Contents (Elt F)) : (⟨S850000, .i32⟩ : BufTy).Contents (Elt F) :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The targets of the 850000 pairs: row 1 of the edge list, then the nodes themselves. -/
def tgts (ei : (⟨S2x800000, .i32⟩ : BufTy).Contents (Elt F)) : (⟨S850000, .i32⟩ : BufTy).Contents (Elt F) :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- The coefficient of each pair: the inverse square roots of its two ends' degrees, multiplied. -/
def coef (row col : (⟨S850000, .i32⟩ : BufTy).Contents (Elt F)) : (⟨S850000, .f32⟩ : BufTy).Contents (Elt F) :=
  mulf (Host.gather gather_S50000_S850000x1_S850000_n_0_n_n_0_1_1 (select (cmpf (F := F) .ogt (Host.scatterAdd scatter_S50000_S850000x1_S850000_n_0_0_1 (broadcastInDim S50000 ![] bcast_S_S50000 (constant S_ .f32 0x00000000#32)) (broadcastInDim S850000x1 ![0] bcast_S850000_S850000x1_0 col) (broadcastInDim S850000 ![] bcast_S_S850000 (constant S_ .f32 0x3F800000#32))) (broadcastInDim S50000 ![] bcast_S_S50000 (constant S_ .f32 0x00000000#32))) (Host.rsqrt (Host.scatterAdd scatter_S50000_S850000x1_S850000_n_0_0_1 (broadcastInDim S50000 ![] bcast_S_S50000 (constant S_ .f32 0x00000000#32)) (broadcastInDim S850000x1 ![0] bcast_S850000_S850000x1_0 col) (broadcastInDim S850000 ![] bcast_S_S850000 (constant S_ .f32 0x3F800000#32)))) (broadcastInDim S50000 ![] bcast_S_S50000 (id (constant S_ .f32 0x00000000#32)))) (broadcastInDim S850000x1 ![0] bcast_S850000_S850000x1_0 (select (cmpi .slt row (broadcastInDim S850000 ![] bcast_S_S850000 (constantI S_ 32 0#32))) (addi row (broadcastInDim S850000 ![] bcast_S_S850000 (constantI S_ 32 50000#32))) row))) (Host.gather gather_S50000_S850000x1_S850000_n_0_n_n_0_1_1 (select (cmpf (F := F) .ogt (Host.scatterAdd scatter_S50000_S850000x1_S850000_n_0_0_1 (broadcastInDim S50000 ![] bcast_S_S50000 (constant S_ .f32 0x00000000#32)) (broadcastInDim S850000x1 ![0] bcast_S850000_S850000x1_0 col) (broadcastInDim S850000 ![] bcast_S_S850000 (constant S_ .f32 0x3F800000#32))) (broadcastInDim S50000 ![] bcast_S_S50000 (constant S_ .f32 0x00000000#32))) (Host.rsqrt (Host.scatterAdd scatter_S50000_S850000x1_S850000_n_0_0_1 (broadcastInDim S50000 ![] bcast_S_S50000 (constant S_ .f32 0x00000000#32)) (broadcastInDim S850000x1 ![0] bcast_S850000_S850000x1_0 col) (broadcastInDim S850000 ![] bcast_S_S850000 (constant S_ .f32 0x3F800000#32)))) (broadcastInDim S50000 ![] bcast_S_S50000 (id (constant S_ .f32 0x00000000#32)))) (broadcastInDim S850000x1 ![0] bcast_S850000_S850000x1_0 (select (cmpi .slt col (broadcastInDim S850000 ![] bcast_S_S850000 (constantI S_ 32 0#32))) (addi col (broadcastInDim S850000 ![] bcast_S_S850000 (constantI S_ 32 50000#32))) col)))

/-- One propagation step: gather the rows of `h` at the sources, scale by the coefficients, add into the targets. -/
def spread (row col : (⟨S850000, .i32⟩ : BufTy).Contents (Elt F)) (nrm : (⟨S850000, .f32⟩ : BufTy).Contents (Elt F))
    (h : (⟨S50000x64, .f32⟩ : BufTy).Contents (Elt F)) : (⟨S50000x64, .f32⟩ : BufTy).Contents (Elt F) :=
  Host.scatterAdd scatter_S50000x64_S850000x1_S850000x64_1_0_0_1 (broadcastInDim S50000x64 ![] bcast_S_S50000x64 (constant S_ .f32 0x00000000#32)) (broadcastInDim S850000x1 ![0] bcast_S850000_S850000x1_0 col) (mulf (broadcastInDim S850000x64 ![0, 1] bcast_S850000x1_S850000x64_0_1 (broadcastInDim S850000x1 ![0] bcast_S850000_S850000x1_0 nrm)) (Host.gather gather_S50000x64_S850000x1_S850000x64_1_0_n_n_0_1_164 h (broadcastInDim S850000x1 ![0] bcast_S850000_S850000x1_0 (select (cmpi .slt row (broadcastInDim S850000 ![] bcast_S_S850000 (constantI S_ 32 0#32))) (addi row (broadcastInDim S850000 ![] bcast_S_S850000 (constantI S_ 32 50000#32))) row))))

/-- A layer as the host spells it. -/
def hostLayer (row col : (⟨S850000, .i32⟩ : BufTy).Contents (Elt F)) (nrm : (⟨S850000, .f32⟩ : BufTy).Contents (Elt F))
    (x : (⟨S50000x64, .f32⟩ : BufTy).Contents (Elt F)) (w : (⟨S64x64, .f32⟩ : BufTy).Contents (Elt F))
    (b : (⟨S64, .f32⟩ : BufTy).Contents (Elt F)) : (⟨S50000x64, .f32⟩ : BufTy).Contents (Elt F) :=
  maximumf (addf (spread row col nrm (Host.dotGeneral dot_S50000x64_S64x64_S50000x64_1_0_0_1_n_n none x w))
      (broadcastInDim S50000x64 ![0, 1] bcast_S1x64_S50000x64_0_1 (broadcastInDim S1x64 ![1] bcast_S64_S1x64_1 b)))
    (broadcastInDim S50000x64 ![] bcast_S_S50000x64 (constant S_ .f32 0x00000000#32))

/-- The two layers as the host spells them. -/
def hostSpec (x : (⟨S50000x64, .f32⟩ : BufTy).Contents (Elt F)) (w1 : (⟨S64x64, .f32⟩ : BufTy).Contents (Elt F))
    (b1 : (⟨S64, .f32⟩ : BufTy).Contents (Elt F)) (w2 : (⟨S64x64, .f32⟩ : BufTy).Contents (Elt F))
    (b2 : (⟨S64, .f32⟩ : BufTy).Contents (Elt F)) (ei : (⟨S2x800000, .i32⟩ : BufTy).Contents (Elt F)) :
    (⟨S50000x64, .f32⟩ : BufTy).Contents (Elt F) :=
  hostLayer (srcs ei) (tgts ei) (coef (srcs ei) (tgts ei))
    (hostLayer (srcs ei) (tgts ei) (coef (srcs ei) (tgts ei)) x w1 b1) w2 b2

end AnyFloats

/-! ## At the ideal values -/

/-- A layer on the extended reals: `max (spread (x · w) + b) 0`. -/
def layer (row col : (⟨S850000, .i32⟩ : BufTy).Contents (Elt Ideal)) (nrm : (⟨S850000, .f32⟩ : BufTy).Contents (Elt Ideal))
    (x : S50000x64.Idx → EReal) (w : S64x64.Idx → EReal) (b : S64.Idx → EReal) : S50000x64.Idx → EReal :=
  biasRelu (spread (F := Ideal) row col nrm (prod x w)) b

/-- The two layers on the extended reals. -/
def spec (x : S50000x64.Idx → EReal) (w1 : S64x64.Idx → EReal) (b1 : S64.Idx → EReal) (w2 : S64x64.Idx → EReal)
    (b2 : S64.Idx → EReal) (ei : (⟨S2x800000, .i32⟩ : BufTy).Contents (Elt Ideal)) : S50000x64.Idx → EReal :=
  layer (srcs ei) (tgts ei) (coef (srcs ei) (tgts ei)) (layer (srcs ei) (tgts ei) (coef (srcs ei) (tgts ei)) x w1 b1) w2 b2

/-- The host's `dot_general` of this program is the plain matrix product. -/
theorem hostDot_eq_prod (l : FVec Ideal S50000x64 .f32) (r : FVec Ideal S64x64 .f32) :
    Host.dotGeneral dot_S50000x64_S64x64_S50000x64_1_0_0_1_n_n none l r = prod l r :=
  dotGeneral_eq_prod dot_S50000x64_S64x64_S50000x64_1_0_0_1_n_n rfl rfl (fun _ _ => rfl)
    (fun j q => DotDims.lhsIdx_val_of_single _ rfl j q) (fun j q => DotDims.rhsIdx_val_of_single _ rfl j q)
    (fun _ _ => rfl) none l r

/-- At the ideal values the host's layer is `layer`: its `dot_general` is the matrix product, its two broadcasts, add
    and maximum are `biasRelu`. -/
theorem hostLayer_eq (row col : (⟨S850000, .i32⟩ : BufTy).Contents (Elt Ideal)) (nrm : (⟨S850000, .f32⟩ : BufTy).Contents (Elt Ideal))
    (x : FVec Ideal S50000x64 .f32) (w : FVec Ideal S64x64 .f32) (b : FVec Ideal S64 .f32) :
    hostLayer (F := Ideal) row col nrm x w b = layer row col nrm x w b := by
  unfold hostLayer layer
  rw [hostDot_eq_prod]
  exact host_eq (by decide) _ b _ _ _

/-- At the ideal values the host's two layers are `spec`. -/
theorem hostSpec_eq (x : FVec Ideal S50000x64 .f32) (w1 : FVec Ideal S64x64 .f32) (b1 : FVec Ideal S64 .f32)
    (w2 : FVec Ideal S64x64 .f32) (b2 : FVec Ideal S64 .f32) (ei : (⟨S2x800000, .i32⟩ : BufTy).Contents (Elt Ideal)) :
    hostSpec (F := Ideal) x w1 b1 w2 b2 ei = spec x w1 b1 w2 b2 ei := by
  unfold hostSpec spec
  rw [hostLayer_eq, hostLayer_eq]

end Cert.Gcn

end
-- ==== Proof.RefSide.lean ====
/-
  The reference's run ends with its result at `spec` of the six argument arrays.

  The run's composed term is the host's two layers written out in full; `hostSpec` is the same text with the shared
  pieces (sources, targets, coefficients, one propagation step) named, so the two agree by unfolding the names. At the
  ideal values `hostSpec` is `spec`.
-/
import proofs.«181508_j91216515432980_1_alg».proof.Proof.RefRunP
import proofs.«181508_j91216515432980_1_alg».proof.Proof.Spec

noncomputable section

namespace Cert.Gcn.Ref

open Idealize.ShloMosaic Idealize.ShloMosaic.TcCoe Idealize.SL.Sem
open Cert.ReferenceIdeal Cert.ReferenceIdeal.Gen Cert.ReferenceIdeal.ValueP

/-- The reference's composed term is the host's two layers of the arguments, over any float interpretation. -/
theorem res_eq_hostSpec {F : FTy → Type} [FloatOps F] (m : (ℓ : Loc nD τ sig) → Buf (Elt F) ℓ) (c : Dev nD) :
    res_main_v65 m c = Cert.Gcn.hostSpec (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  unfold res_main_v65 Cert.Gcn.hostSpec Cert.Gcn.hostLayer Cert.Gcn.spread Cert.Gcn.coef Cert.Gcn.srcs Cert.Gcn.tgts
  rfl

/-- At the ideal values the reference's result is `spec` of the arguments. -/
theorem res_eq_spec (m : (ℓ : Loc nD τ sig) → Buf (Elt Ideal) ℓ) (c : Dev nD) :
    res_main_v65 m c = Cert.Gcn.spec (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) :=
  (res_eq_hostSpec m c).trans (Cert.Gcn.hostSpec_eq _ _ _ _ _ _)

end Cert.Gcn.Ref

end
-- ==== Proof.KernelHost.lean ====
/-
  The kernel program's host operations between its regions, read at the buffers the regions take.

  Over ANY contents `V` of the buffers when a stretch of host operations starts:
  · the stretch before the first region leaves the sources, the targets and the coefficients of the 850000 pairs
    (`srcs`, `tgts`, `coef` of the edge list) in three buffers, and the argument arrays as they were;
  · the stretch after the first region and the one after the second each leave one propagation step (`spread`) of the
    region's output, and the bias vector as the one row of a `[1, 64]` array, and leave alone what later stretches read.
  The operations are the ones the reference applies, so each buffer's contents is the shared definition applied to
  the contents the stretch found.
-/
import proofs.«181508_j91216515432980_1_alg».proof.Proof.Gen.KernelIdeal.Frame
import proofs.«181508_j91216515432980_1_alg».proof.Proof.Spec
import Idealize.ShloMosaic.Lib.StableHlo.Run
import Idealize.ShloMosaic.Lib.ValueLayout
import Idealize.ShloMosaic.Lib.ValueIdx

set_option maxRecDepth 16384

noncomputable section

namespace Cert.Gcn.Kern

open Idealize.ShloMosaic Idealize.ShloMosaic.TcCoe Idealize.ShloMosaic.ValueIdx Idealize.SL.Sem
open Idealize.ShloMosaic.StableHlo
open Cert.KernelIdeal Cert.KernelIdeal.Gen

variable {F : FTy → Type} [FloatOps F] (V : Valuation τ sig (Elt F))

/-! ## Before the first region -/

theorem pre_srcs : after hostOps0_2 (after hostOps0_1 (after hostOps0 V)) (Proc.devRef .tc main_v3)
    = Cert.Gcn.srcs (F := F) (V (Proc.devRef .tc main_arg5)) := by
  dsimp only [hostOps0, hostOps0_1, hostOps0_2]
  after_results
  rfl

theorem pre_tgts : after hostOps0_2 (after hostOps0_1 (after hostOps0 V)) (Proc.devRef .tc main_v6)
    = Cert.Gcn.tgts (F := F) (V (Proc.devRef .tc main_arg5)) := by
  dsimp only [hostOps0, hostOps0_1, hostOps0_2]
  after_results
  rfl

set_option maxHeartbeats 4000000 in
theorem pre_coef : after hostOps0_2 (after hostOps0_1 (after hostOps0 V)) (Proc.devRef .tc main_v29)
    = Cert.Gcn.coef (F := F) (Cert.Gcn.srcs (V (Proc.devRef .tc main_arg5))) (Cert.Gcn.tgts (V (Proc.devRef .tc main_arg5))) := by
  dsimp only [hostOps0, hostOps0_1, hostOps0_2]
  after_results_simp
  rfl

theorem pre_arg0 : after hostOps0_2 (after hostOps0_1 (after hostOps0 V)) (Proc.devRef .tc main_arg0) = V (Proc.devRef .tc main_arg0) := by
  dsimp only [hostOps0, hostOps0_1, hostOps0_2]; after_results
theorem pre_arg1 : after hostOps0_2 (after hostOps0_1 (after hostOps0 V)) (Proc.devRef .tc main_arg1) = V (Proc.devRef .tc main_arg1) := by
  dsimp only [hostOps0, hostOps0_1, hostOps0_2]; after_results
theorem pre_arg2 : after hostOps0_2 (after hostOps0_1 (after hostOps0 V)) (Proc.devRef .tc main_arg2) = V (Proc.devRef .tc main_arg2) := by
  dsimp only [hostOps0, hostOps0_1, hostOps0_2]; after_results
theorem pre_arg3 : after hostOps0_2 (after hostOps0_1 (after hostOps0 V)) (Proc.devRef .tc main_arg3) = V (Proc.devRef .tc main_arg3) := by
  dsimp only [hostOps0, hostOps0_1, hostOps0_2]; after_results
theorem pre_arg4 : after hostOps0_2 (after hostOps0_1 (after hostOps0 V)) (Proc.devRef .tc main_arg4) = V (Proc.devRef .tc main_arg4) := by
  dsimp only [hostOps0, hostOps0_1, hostOps0_2]; after_results

/-! ## Between the first and the second region -/

set_option maxHeartbeats 4000000 in
theorem mid1_spread : after hostOps1 V (Proc.devRef .tc main_v43)
    = Cert.Gcn.spread (F := F) (V (Proc.devRef .tc main_v3)) (V (Proc.devRef .tc main_v6)) (V (Proc.devRef .tc main_v29))
        (V (Proc.devRef .tc main_v30)) := by
  dsimp only [hostOps1]
  after_results_simp
  rfl

theorem mid1_bias (q : Fin 64) : (after hostOps1 V (Proc.devRef .tc main_v44) : S1x64.Idx → Elt F .f32) (ix2 (0 : Fin 1) q)
    = (V (Proc.devRef .tc main_arg2) : S64.Idx → Elt F .f32) (ix1 q) := by
  dsimp only [hostOps1]
  after_results
  exact shapeCast_a_1a_apply _ _ (0 : Fin 1) q

theorem mid1_arg3 : after hostOps1 V (Proc.devRef .tc main_arg3) = V (Proc.devRef .tc main_arg3) := by
  dsimp only [hostOps1]; after_results
theorem mid1_arg4 : after hostOps1 V (Proc.devRef .tc main_arg4) = V (Proc.devRef .tc main_arg4) := by
  dsimp only [hostOps1]; after_results
theorem mid1_v3 : after hostOps1 V (Proc.devRef .tc main_v3) = V (Proc.devRef .tc main_v3) := by
  dsimp only [hostOps1]; after_results
theorem mid1_v6 : after hostOps1 V (Proc.devRef .tc main_v6) = V (Proc.devRef .tc main_v6) := by
  dsimp only [hostOps1]; after_results
theorem mid1_v29 : after hostOps1 V (Proc.devRef .tc main_v29) = V (Proc.devRef .tc main_v29) := by
  dsimp only [hostOps1]; after_results

/-! ## Between the second and the third region -/

set_option maxHeartbeats 4000000 in
theorem mid2_spread : after hostOps2 V (Proc.devRef .tc main_v58)
    = Cert.Gcn.spread (F := F) (V (Proc.devRef .tc main_v3)) (V (Proc.devRef .tc main_v6)) (V (Proc.devRef .tc main_v29))
        (V (Proc.devRef .tc main_v45)) := by
  dsimp only [hostOps2]
  after_results_simp
  rfl

theorem mid2_bias (q : Fin 64) : (after hostOps2 V (Proc.devRef .tc main_v59) : S1x64.Idx → Elt F .f32) (ix2 (0 : Fin 1) q)
    = (V (Proc.devRef .tc main_arg4) : S64.Idx → Elt F .f32) (ix1 q) := by
  dsimp only [hostOps2]
  after_results
  exact shapeCast_a_1a_apply _ _ (0 : Fin 1) q

end Cert.Gcn.Kern

end
-- ==== Proof.Region0.lean ====
/-
  Region 0: the array the matrix-product kernel leaves is the product of the two arrays it reads.

  The grid has 25 points; point `t` reads rows `2000 t … 2000 t + 1999` of the left array and the whole right array,
  multiplies them into a zero accumulator, and writes the result back as rows `2000 t … 2000 t + 1999` of the output.
  A row of a matrix product depends on the left operand through that row only, so what point `t` writes is block
  `t` of the whole product; the 25 blocks tile the 50000 rows, so the output array ends holding the whole product.
  All of it for ANY contents `V` of the buffers when the region is entered.
-/
import proofs.«181508_j91216515432980_1_alg».proof.Proof.Gen.KernelIdeal.Frame
import proofs.«181508_j91216515432980_1_alg».proof.Proof.LibMatProd
import Idealize.ShloMosaic.Lib.Pipeline.Value
import Idealize.ShloMosaic.Lib.ValueIdx

set_option maxRecDepth 16384

noncomputable section

namespace Cert.Gcn.Kern

open Idealize.ShloMosaic Idealize.ShloMosaic.TcCoe Idealize.ShloMosaic.ValueIdx Idealize.SL.Sem
open Idealize.ShloMosaic.Pipeline (Dat)
open Cert.KernelIdeal Cert.KernelIdeal.Gen
open Cert.Lib.MatProd

theorem origin2 : (![0, 0] : Fin 2 → Nat) = fun _ => 0 := funext fun a => by fin_cases a <;> rfl

/-- The kernel's `tpu.matmul` into the zero accumulator is the plain product of its operands, whatever their formats. -/
theorem kernelDot_eq_prod {φ₁ φ₂ : FTy} (l : FVec Ideal S2000x64 φ₁) (r : FVec Ideal S64x64 φ₂) :
    matmul dot_S2000x64_S64x64_S2000x64_1_0_0_1_n_n none l r (constant (F := Ideal) S2000x64 .f32 0x00000000#32) = prod l r :=
  matmul_zero_eq_prod dot_S2000x64_S64x64_S2000x64_1_0_0_1_n_n rfl rfl (fun _ _ => rfl)
    (fun j q => DotDims.lhsIdx_val_of_single _ rfl j q) (fun j q => DotDims.rhsIdx_val_of_single _ rfl j q)
    (fun _ _ => rfl) none l r

/-- The body's one store: the two loaded blocks, rounded (the identity at the ideal values) and multiplied. -/
theorem pay0_eq (x0 : Vec Ideal S2000x64 .f32) (x1 : Vec Ideal S64x64 .f32) : k0_pay1 x0 x1 = prod x0 x1 := by
  unfold k0_pay1
  exact kernelDot_eq_prod _ _

/-- The index maps over the grid: the left operand's and the output's blocks move down the rows with the point, the
    right operand's block stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of the whole product. -/
theorem flushed0 (c : Dev nD) (t : Fin cfg0.N) :
    (dat0 V c).flushed 2 t = ((cfg0.win 2).blk t).view.read (Elt Ideal) (prod (V c main_arg0) (V c main_arg1)) := by
  show (cfg0.win 2).cut (grid0.coords t) ((dat0 V c).after 2 t) = _
  rw [after0_2]
  unfold out0_2
  rw [View.canon_unit_zero origin2]
  simp only [View.ld_unit_zero (S := S2000x64) origin2, View.ld_unit_zero (S := S64x64) origin2]
  rw [pay0_eq]
  obtain ⟨e0, e1, e2, e3, e4, e5⟩ := idx0 t
  have ht : t.val < 25 := Nat.lt_of_lt_of_eq t.isLt N_0
  funext j
  obtain ⟨p, q, rfl⟩ : ∃ (p : Fin 2000) (q : Fin 64), j = ix2 p q := ⟨j 0, j 1, eq_ix2 j⟩
  have hrow : t.val * 2000 + p.val < 50000 := by have := p.isLt; omega
  have hemb : ((cfg0.win 2).blk t).view.emb (ix2 p q) = ix2 ⟨t.val * 2000 + p.val, hrow⟩ q := by
    funext a; apply Fin.ext
    match a with
    | ⟨0, _⟩ => show win0_2.index t (0 : Fin 2) * 2000 + 1 * p.val = t.val * 2000 + p.val; omega
    | ⟨1, _⟩ => show win0_2.index t (1 : Fin 2) * 64 + 1 * q.val = q.val; omega
  show prod (iblk0 V c 0 t) (iblk0 V c 1 t) (ix2 p q)
    = prod (V c main_arg0) (V c main_arg1) (((cfg0.win 2).blk t).view.emb (ix2 p q))
  rw [hemb]
  refine prod_rows (V c main_arg0) (V c main_arg1) (iblk0 V c 0 t) (iblk0 V c 1 t) t.val p q hrow (fun k => ?_) (fun k => ?_)
  · show V c main_arg0 (((cfg0.win 0).blk t).view.emb (ix2 p k)) = V c main_arg0 (ix2 ⟨t.val * 2000 + p.val, hrow⟩ k)
    congr 1
    funext a; apply Fin.ext
    match a with
    | ⟨0, _⟩ => show win0_0.index t (0 : Fin 2) * 2000 + 1 * p.val = t.val * 2000 + p.val; omega
    | ⟨1, _⟩ => show win0_0.index t (1 : Fin 2) * 64 + 1 * k.val = k.val; omega
  · show V c main_arg1 (((cfg0.win 1).blk t).view.emb (ix2 k q)) = V c main_arg1 (ix2 k q)
    congr 1
    funext a; apply Fin.ext
    match a with
    | ⟨0, _⟩ => show win0_1.index t (0 : Fin 2) * 64 + 1 * k.val = k.val; omega
    | ⟨1, _⟩ => show win0_1.index t (1 : Fin 2) * 64 + 1 * q.val = q.val; omega

/-- An index of the output array is in point `t`'s block iff its row is one of the block's 2000. -/
theorem mem_blk0 (t : Fin cfg0.N) (i : S50000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v30).slice (win0_2.rect t)).set ↔ _
  rw [View.set_slice_whole, Rect.mem_set_unit]
  exact Iff.rfl

/-- Every index of the output array is in the block of the point its row falls in. -/
theorem cover0 (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 25 := N_0
  refine ⟨⟨(i 0).val / 2000, by rw [hN]; omega⟩, flush0_2 _, ?_⟩
  rw [mem_blk0]
  obtain ⟨e0, e1, e2, e3, e4, e5⟩ := idx0 ⟨(i 0).val / 2000, by rw [hN]; omega⟩
  intro a
  match a with
  | ⟨0, _⟩ => show win0_2.index _ (0 : Fin 2) * 2000 ≤ (i 0).val ∧ (i 0).val < win0_2.index _ (0 : Fin 2) * 2000 + 2000; rw [e4]; show (i 0).val / 2000 * 2000 ≤ (i 0).val ∧ (i 0).val < (i 0).val / 2000 * 2000 + 2000; omega
  | ⟨1, _⟩ => show win0_2.index _ (1 : Fin 2) * 64 ≤ (i 1).val ∧ (i 1).val < win0_2.index _ (1 : Fin 2) * 64 + 64; rw [e5]; omega

/-- The output array after the region: the product of the two arrays the region read. -/
theorem final0 (c : Dev nD) : (dat0 V c).arrAt 2 cfg0.N = prod (V c main_arg0) (V c main_arg1) :=
  (dat0 V c).arrAt_eq_of_cover 2 (prod (V c main_arg0) (V c main_arg1)) (fun t _ => flushed0 V c t) cover0

end Cert.Gcn.Kern

end
-- ==== Proof.Region1.lean ====
/-
  Region 1: the array the fused kernel leaves is `biasRelu` of the matrix it reads and the bias, times the weights.

  Point `t` of the 25 reads rows `2000 t … 2000 t + 1999` of the matrix, the one-row bias array and the whole weight
  matrix; it adds the bias row to every row, clamps below at zero, multiplies by the weights into a zero accumulator and
  writes the 2000 rows back. Row `r` of the result depends on the matrix through row `r` only, so the block is block
  `t` of `biasRelu a b · w` for the whole matrix `a`, and the blocks tile the rows. The bias reaches the kernel as a
  `[1, 64]` array; the statement takes the vector `b` it is the one row of as a hypothesis. For ANY contents `V` of the
  buffers when the region is entered.
-/
import proofs.«181508_j91216515432980_1_alg».proof.Proof.Region0
import proofs.«181508_j91216515432980_1_alg».proof.Proof.LibBiasRelu
import Idealize.ShloMosaic.Lib.ValueLayout
import Idealize.ShloMosaic.Lib.Pipeline.Value
import Idealize.ShloMosaic.Lib.ValueIdx

set_option maxRecDepth 16384

noncomputable section

namespace Cert.Gcn.Kern

open Idealize.ShloMosaic Idealize.ShloMosaic.TcCoe Idealize.ShloMosaic.ValueIdx Idealize.SL.Sem
open Idealize.ShloMosaic.Pipeline (Dat)
open Cert.KernelIdeal Cert.KernelIdeal.Gen
open Cert.Lib.MatProd Cert.Lib.BiasRelu

/-- A block of rows with the bias row added and clamped below at zero. -/
def reluRow (x0 : S2000x64.Idx → EReal) (x1 : S1x64.Idx → EReal) : S2000x64.Idx → EReal :=
  fun i => max (x0 i + x1 (ix2 (0 : Fin 1) (i 1))) (Ideal.ofBits .f32 0x00000000#32)

/-- The body's one store: the clamped block times the weights (the roundings are the identity at the ideal values). -/
theorem pay1_eq (x0 : Vec Ideal S2000x64 .f32) (x1 : Vec Ideal S1x64 .f32) (x2 : Vec Ideal S64x64 .f32) :
    k1_pay1 x0 x1 x2 = prod (reluRow x0 x1) x2 := by
  unfold k1_pay1
  refine (kernelDot_eq_prod _ _).trans ?_
  refine congrArg (fun l => prod l x2) (funext fun i => ?_)
  obtain ⟨p, q, rfl⟩ : ∃ (p : Fin 2000) (q : Fin 64), i = ix2 p q := ⟨i 0, i 1, eq_ix2 i⟩
  show maximumf (addf (shapeCast S2000x64 x0 shapeCasts_S2000x64_S2000x64)
      (broadcastTo S2000x64 (shapeCast S1x64 x1 shapeCasts_S1x64_S1x64) broadcasts_S1x64_S2000x64))
    (broadcast S2000x64 (Scalar.ofBits (F := Ideal) .f32 0x00000000#32)) (ix2 p q) = _
  rw [maximumf_apply, addf_apply, shapeCast_self, broadcastTo_1b_ab_apply, shapeCast_self, broadcast_apply]
  rfl

/-- The index maps over the grid: the matrix's and the output's blocks move down the rows, the bias row and the
    weights stay. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What point `t` writes back is block `t` of `biasRelu a b · w`. -/
theorem flushed1 (c : Dev nD) (b : S64.Idx → EReal) (hb : ∀ q : Fin 64, V c main_v44 (ix2 (0 : Fin 1) q) = b (ix1 q))
    (t : Fin cfg1.N) :
    (dat1 V c).flushed 3 t
      = ((cfg1.win 3).blk t).view.read (Elt Ideal) (prod (biasRelu (V c main_v43) b) (V c main_arg3)) := by
  show (cfg1.win 3).cut (grid1.coords t) ((dat1 V c).after 3 t) = _
  rw [after1_3]
  unfold out1_3
  rw [View.canon_unit_zero origin2]
  simp only [View.ld_unit_zero (S := S2000x64) origin2, View.ld_unit_zero (S := S1x64) origin2,
    View.ld_unit_zero (S := S64x64) origin2]
  rw [pay1_eq]
  obtain ⟨e0, e1, e2, e3, e4, e5, e6, e7⟩ := idx1 t
  have ht : t.val < 25 := Nat.lt_of_lt_of_eq t.isLt N_1
  funext j
  obtain ⟨p, q, rfl⟩ : ∃ (p : Fin 2000) (q : Fin 64), j = ix2 p q := ⟨j 0, j 1, eq_ix2 j⟩
  have hrow : t.val * 2000 + p.val < 50000 := by have := p.isLt; omega
  have hemb : ((cfg1.win 3).blk t).view.emb (ix2 p q) = ix2 ⟨t.val * 2000 + p.val, hrow⟩ q := by
    funext a; apply Fin.ext
    match a with
    | ⟨0, _⟩ => show win1_3.index t (0 : Fin 2) * 2000 + 1 * p.val = t.val * 2000 + p.val; omega
    | ⟨1, _⟩ => show win1_3.index t (1 : Fin 2) * 64 + 1 * q.val = q.val; omega
  show prod (reluRow (iblk1 V c 0 t) (iblk1 V c 1 t)) (iblk1 V c 2 t) (ix2 p q)
    = prod (biasRelu (V c main_v43) b) (V c main_arg3) (((cfg1.win 3).blk t).view.emb (ix2 p q))
  rw [hemb]
  refine prod_rows (biasRelu (V c main_v43) b) (V c main_arg3) (reluRow (iblk1 V c 0 t) (iblk1 V c 1 t)) (iblk1 V c 2 t)
    t.val p q hrow (fun k => ?_) (fun k => ?_)
  · have h0 : iblk1 V c 0 t (ix2 p k) = V c main_v43 (ix2 ⟨t.val * 2000 + p.val, hrow⟩ k) := by
      show V c main_v43 (((cfg1.win 0).blk t).view.emb (ix2 p k)) = _
      refine congrArg (V c main_v43) ?_
      funext a; apply Fin.ext
      match a with
      | ⟨0, _⟩ => show win1_0.index t (0 : Fin 2) * 2000 + 1 * p.val = t.val * 2000 + p.val; omega
      | ⟨1, _⟩ => show win1_0.index t (1 : Fin 2) * 64 + 1 * k.val = k.val; omega
    have h1 : iblk1 V c 1 t (ix2 (0 : Fin 1) k) = b (ix1 k) := by
      refine Eq.trans ?_ (hb k)
      show V c main_v44 (((cfg1.win 1).blk t).view.emb (ix2 (0 : Fin 1) k)) = V c main_v44 (ix2 (0 : Fin 1) k)
      refine congrArg (V c main_v44) ?_
      funext a; apply Fin.ext
      match a with
      | ⟨0, _⟩ => show win1_1.index t (0 : Fin 2) * 1 + 1 * 0 = 0; omega
      | ⟨1, _⟩ => show win1_1.index t (1 : Fin 2) * 64 + 1 * k.val = k.val; omega
    show reluRow (iblk1 V c 0 t) (iblk1 V c 1 t) (ix2 p k) = biasRelu (V c main_v43) b (ix2 ⟨t.val * 2000 + p.val, hrow⟩ k)
    rw [biasRelu_apply, ← h0, ← h1]
    rfl
  · show V c main_arg3 (((cfg1.win 2).blk t).view.emb (ix2 k q)) = V c main_arg3 (ix2 k q)
    refine congrArg (V c main_arg3) ?_
    funext a; apply Fin.ext
    match a with
    | ⟨0, _⟩ => show win1_2.index t (0 : Fin 2) * 64 + 1 * k.val = k.val; omega
    | ⟨1, _⟩ => show win1_2.index t (1 : Fin 2) * 64 + 1 * q.val = q.val; omega

/-- An index of the output array is in point `t`'s block iff its row is one of the block's 2000. -/
theorem mem_blk1 (t : Fin cfg1.N) (i : S50000x64.Idx) :
    i ∈ ((cfg1.win 3).blk t).view.set ↔ ∀ a : Fin 2, win1_3.index t a * S2000x64.size a ≤ (i a).val ∧ (i a).val < win1_3.index t a * S2000x64.size a + S2000x64.size a := by
  show i ∈ ((View.whole main_v45).slice (win1_3.rect t)).set ↔ _
  rw [View.set_slice_whole, Rect.mem_set_unit]
  exact Iff.rfl

/-- Every index of the output array is in the block of the point its row falls in. -/
theorem cover1 (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 25 := N_1
  refine ⟨⟨(i 0).val / 2000, by rw [hN]; omega⟩, flush1_3 _, ?_⟩
  rw [mem_blk1]
  obtain ⟨e0, e1, e2, e3, e4, e5, e6, e7⟩ := idx1 ⟨(i 0).val / 2000, by rw [hN]; omega⟩
  intro a
  match a with
  | ⟨0, _⟩ => show win1_3.index _ (0 : Fin 2) * 2000 ≤ (i 0).val ∧ (i 0).val < win1_3.index _ (0 : Fin 2) * 2000 + 2000; rw [e6]; show (i 0).val / 2000 * 2000 ≤ (i 0).val ∧ (i 0).val < (i 0).val / 2000 * 2000 + 2000; omega
  | ⟨1, _⟩ => show win1_3.index _ (1 : Fin 2) * 64 ≤ (i 1).val ∧ (i 1).val < win1_3.index _ (1 : Fin 2) * 64 + 64; rw [e7]; omega

/-- The output array after the region: `biasRelu` of the matrix the region read and the bias, times the weights. -/
theorem final1 (c : Dev nD) (b : S64.Idx → EReal) (hb : ∀ q : Fin 64, V c main_v44 (ix2 (0 : Fin 1) q) = b (ix1 q)) :
    (dat1 V c).arrAt 3 cfg1.N = prod (biasRelu (V c main_v43) b) (V c main_arg3) :=
  (dat1 V c).arrAt_eq_of_cover 3 (prod (biasRelu (V c main_v43) b) (V c main_arg3)) (fun t _ => flushed1 V c b hb t) cover1

end Cert.Gcn.Kern

end
-- ==== Proof.Region2.lean ====
/-
  Region 2: the array the bias-and-clamp kernel leaves is `biasRelu` of the matrix it reads and the bias.

  Point `t` of the 25 reads rows `2000 t … 2000 t + 1999` of the matrix and the one-row bias array, adds the bias row to
  every row, clamps below at zero and writes the rows back in place. Entry by entry that is `max (a (r, k) + b k) 0`,
  the same function of the whole matrix at every point, and the blocks tile the rows. The bias reaches the kernel as
  a `[1, 64]` array; the statement takes the vector `b` it is the one row of as a hypothesis. For ANY contents `V` of the
  buffers when the region is entered.
-/
import proofs.«181508_j91216515432980_1_alg».proof.Proof.Region0
import proofs.«181508_j91216515432980_1_alg».proof.Proof.LibBiasRelu
import Idealize.ShloMosaic.Lib.ValueLayout
import Idealize.ShloMosaic.Lib.Pipeline.Value
import Idealize.ShloMosaic.Lib.ValueIdx

set_option maxRecDepth 16384

noncomputable section

namespace Cert.Gcn.Kern

open Idealize.ShloMosaic Idealize.ShloMosaic.TcCoe Idealize.ShloMosaic.ValueIdx Idealize.SL.Sem
open Idealize.ShloMosaic.Pipeline (Dat)
open Cert.KernelIdeal Cert.KernelIdeal.Gen
open Cert.Lib.MatProd Cert.Lib.BiasRelu

/-- The body's one store at an entry: the matrix block's entry plus the bias row's, clamped below at zero. -/
theorem pay2_apply (x0 : Vec Ideal S2000x64 .f32) (x1 : Vec Ideal S1x64 .f32) (p : Fin 2000) (q : Fin 64) :
    k2_pay1 x0 x1 (ix2 p q) = max (x0 (ix2 p q) + x1 (ix2 (0 : Fin 1) q)) (Ideal.ofBits .f32 0x00000000#32) := by
  unfold k2_pay1
  rw [maximumf_apply, addf_apply, shapeCast_self, broadcastTo_1b_ab_apply, shapeCast_self, broadcast_apply]
  rfl

/-- The index maps over the grid: the matrix's and the output's blocks move down the rows, the bias row stays. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What point `t` writes back is block `t` of `biasRelu` of the whole matrix. -/
theorem flushed2 (c : Dev nD) (b : S64.Idx → EReal) (hb : ∀ q : Fin 64, V c main_v59 (ix2 (0 : Fin 1) q) = b (ix1 q))
    (t : Fin cfg2.N) :
    (dat2 V c).flushed 2 t = ((cfg2.win 2).blk t).view.read (Elt Ideal) (biasRelu (V c main_v58) b) := by
  show (cfg2.win 2).cut (grid2.coords t) ((dat2 V c).after 2 t) = _
  rw [after2_2]
  unfold out2_2
  rw [View.canon_unit_zero origin2]
  simp only [View.ld_unit_zero (S := S2000x64) origin2, View.ld_unit_zero (S := S1x64) origin2]
  obtain ⟨e0, e1, e2, e3, e4, e5⟩ := idx2 t
  have ht : t.val < 25 := Nat.lt_of_lt_of_eq t.isLt N_2
  funext j
  obtain ⟨p, q, rfl⟩ : ∃ (p : Fin 2000) (q : Fin 64), j = ix2 p q := ⟨j 0, j 1, eq_ix2 j⟩
  have hrow : t.val * 2000 + p.val < 50000 := by have := p.isLt; omega
  have hemb : ((cfg2.win 2).blk t).view.emb (ix2 p q) = ix2 ⟨t.val * 2000 + p.val, hrow⟩ q := by
    funext a; apply Fin.ext
    match a with
    | ⟨0, _⟩ => show win2_2.index t (0 : Fin 2) * 2000 + 1 * p.val = t.val * 2000 + p.val; omega
    | ⟨1, _⟩ => show win2_2.index t (1 : Fin 2) * 64 + 1 * q.val = q.val; omega
  show k2_pay1 (iblk2 V c 0 t) (iblk2 V c 1 t) (ix2 p q)
    = biasRelu (V c main_v58) b (((cfg2.win 2).blk t).view.emb (ix2 p q))
  rw [hemb]
  refine (pay2_apply (iblk2 V c 0 t) (iblk2 V c 1 t) p q).trans ?_
  have h0 : iblk2 V c 0 t (ix2 p q) = V c main_v58 (ix2 ⟨t.val * 2000 + p.val, hrow⟩ q) := by
    show V c main_v58 (((cfg2.win 0).blk t).view.emb (ix2 p q)) = _
    refine congrArg (V c main_v58) ?_
    funext a; apply Fin.ext
    match a with
    | ⟨0, _⟩ => show win2_0.index t (0 : Fin 2) * 2000 + 1 * p.val = t.val * 2000 + p.val; omega
    | ⟨1, _⟩ => show win2_0.index t (1 : Fin 2) * 64 + 1 * q.val = q.val; omega
  have h1 : iblk2 V c 1 t (ix2 (0 : Fin 1) q) = b (ix1 q) := by
    refine Eq.trans ?_ (hb q)
    show V c main_v59 (((cfg2.win 1).blk t).view.emb (ix2 (0 : Fin 1) q)) = V c main_v59 (ix2 (0 : Fin 1) q)
    refine congrArg (V c main_v59) ?_
    funext a; apply Fin.ext
    match a with
    | ⟨0, _⟩ => show win2_1.index t (0 : Fin 2) * 1 + 1 * 0 = 0; omega
    | ⟨1, _⟩ => show win2_1.index t (1 : Fin 2) * 64 + 1 * q.val = q.val; omega
  rw [biasRelu_apply, h0, h1]

/-- An index of the output array is in point `t`'s block iff its row is one of the block's 2000. -/
theorem mem_blk2 (t : Fin cfg2.N) (i : S50000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v60).slice (win2_2.rect t)).set ↔ _
  rw [View.set_slice_whole, Rect.mem_set_unit]
  exact Iff.rfl

/-- Every index of the output array is in the block of the point its row falls in. -/
theorem cover2 (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 25 := N_2
  refine ⟨⟨(i 0).val / 2000, by rw [hN]; omega⟩, flush2_2 _, ?_⟩
  rw [mem_blk2]
  obtain ⟨e0, e1, e2, e3, e4, e5⟩ := idx2 ⟨(i 0).val / 2000, by rw [hN]; omega⟩
  intro a
  match a with
  | ⟨0, _⟩ => show win2_2.index _ (0 : Fin 2) * 2000 ≤ (i 0).val ∧ (i 0).val < win2_2.index _ (0 : Fin 2) * 2000 + 2000; rw [e4]; show (i 0).val / 2000 * 2000 ≤ (i 0).val ∧ (i 0).val < (i 0).val / 2000 * 2000 + 2000; omega
  | ⟨1, _⟩ => show win2_2.index _ (1 : Fin 2) * 64 ≤ (i 1).val ∧ (i 1).val < win2_2.index _ (1 : Fin 2) * 64 + 64; rw [e5]; omega

/-- The output array after the region: `biasRelu` of the matrix the region read and the bias. -/
theorem final2 (c : Dev nD) (b : S64.Idx → EReal) (hb : ∀ q : Fin 64, V c main_v59 (ix2 (0 : Fin 1) q) = b (ix1 q)) :
    (dat2 V c).arrAt 2 cfg2.N = biasRelu (V c main_v58) b :=
  (dat2 V c).arrAt_eq_of_cover 2 (biasRelu (V c main_v58) b) (fun t _ => flushed2 V c b hb t) cover2

end Cert.Gcn.Kern

end
-- ==== Proof.KernelRun.lean ====
/-
  The kernel program's run ends with its result at `spec` of the six argument arrays.

  The run's buffer contents at the boundaries between host stretches and regions are a fold from the launch memory.
  Walking it forward: the first stretch computes the pairs' sources, targets and coefficients from the edge list;
  region 0 leaves `x · w1`; the next stretch propagates it and region 1 leaves `biasRelu (…) b1 · w2`, that is the first
  layer times `w2`; the last stretch propagates that and region 2 leaves `biasRelu (…) b2`: the two layers. The pairs'
  sources, targets and coefficients are written once and only read afterwards, so each later stretch finds them as the
  first one left them. The run itself is the generated frame's, with the result buffer read at the last boundary.
-/
import proofs.«181508_j91216515432980_1_alg».proof.Proof.Gen.KernelIdeal.Frame
import proofs.«181508_j91216515432980_1_alg».proof.Proof.KernelHost
import proofs.«181508_j91216515432980_1_alg».proof.Proof.Region0
import proofs.«181508_j91216515432980_1_alg».proof.Proof.Region1
import proofs.«181508_j91216515432980_1_alg».proof.Proof.Region2
import proofs.«181508_j91216515432980_1_alg».proof.Proof.Spec

set_option maxRecDepth 16384

noncomputable section

namespace Cert.Gcn.Kern

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.Lib.MatProd Cert.Lib.BiasRelu

local notation "𝕄" => MT nD τ sig Unit (Elt Ideal) ℕ (UR sig nD τ) ℕ

variable (m : (ℓ : Loc nD τ sig) → Buf (Elt Ideal) ℓ) (ρ : Dev nD → PrngReg) (c : Dev nD)

/-! ## What is written once and read later: the pairs, and the arguments -/

theorem row3 : W3 m ρ c (Proc.devRef .tc main_v3) = (Cert.Gcn.srcs (F := Ideal) (m ((c : Thread nD τ).loc main_arg5))) := pre_srcs (W0 m ρ c)
theorem row4 : W4 m ρ c (Proc.devRef .tc main_v3) = (Cert.Gcn.srcs (F := Ideal) (m ((c : Thread nD τ).loc main_arg5))) := (W4_of_ne m ρ c main_v3 (by decide)).trans (row3 m ρ c)
theorem row5 : W5 m ρ c (Proc.devRef .tc main_v3) = (Cert.Gcn.srcs (F := Ideal) (m ((c : Thread nD τ).loc main_arg5))) := (mid1_v3 (W4 m ρ c)).trans (row4 m ρ c)
theorem row6 : W6 m ρ c (Proc.devRef .tc main_v3) = (Cert.Gcn.srcs (F := Ideal) (m ((c : Thread nD τ).loc main_arg5))) := (W6_of_ne m ρ c main_v3 (by decide)).trans (row5 m ρ c)

theorem col3 : W3 m ρ c (Proc.devRef .tc main_v6) = (Cert.Gcn.tgts (F := Ideal) (m ((c : Thread nD τ).loc main_arg5))) := pre_tgts (W0 m ρ c)
theorem col4 : W4 m ρ c (Proc.devRef .tc main_v6) = (Cert.Gcn.tgts (F := Ideal) (m ((c : Thread nD τ).loc main_arg5))) := (W4_of_ne m ρ c main_v6 (by decide)).trans (col3 m ρ c)
theorem col5 : W5 m ρ c (Proc.devRef .tc main_v6) = (Cert.Gcn.tgts (F := Ideal) (m ((c : Thread nD τ).loc main_arg5))) := (mid1_v6 (W4 m ρ c)).trans (col4 m ρ c)
theorem col6 : W6 m ρ c (Proc.devRef .tc main_v6) = (Cert.Gcn.tgts (F := Ideal) (m ((c : Thread nD τ).loc main_arg5))) := (W6_of_ne m ρ c main_v6 (by decide)).trans (col5 m ρ c)

theorem nrm3 : W3 m ρ c (Proc.devRef .tc main_v29) = (Cert.Gcn.coef (F := Ideal) (Cert.Gcn.srcs (F := Ideal) (m ((c : Thread nD τ).loc main_arg5))) (Cert.Gcn.tgts (F := Ideal) (m ((c : Thread nD τ).loc main_arg5)))) := pre_coef (W0 m ρ c)
theorem nrm4 : W4 m ρ c (Proc.devRef .tc main_v29) = (Cert.Gcn.coef (F := Ideal) (Cert.Gcn.srcs (F := Ideal) (m ((c : Thread nD τ).loc main_arg5))) (Cert.Gcn.tgts (F := Ideal) (m ((c : Thread nD τ).loc main_arg5)))) := (W4_of_ne m ρ c main_v29 (by decide)).trans (nrm3 m ρ c)
theorem nrm5 : W5 m ρ c (Proc.devRef .tc main_v29) = (Cert.Gcn.coef (F := Ideal) (Cert.Gcn.srcs (F := Ideal) (m ((c : Thread nD τ).loc main_arg5))) (Cert.Gcn.tgts (F := Ideal) (m ((c : Thread nD τ).loc main_arg5)))) := (mid1_v29 (W4 m ρ c)).trans (nrm4 m ρ c)
theorem nrm6 : W6 m ρ c (Proc.devRef .tc main_v29) = (Cert.Gcn.coef (F := Ideal) (Cert.Gcn.srcs (F := Ideal) (m ((c : Thread nD τ).loc main_arg5))) (Cert.Gcn.tgts (F := Ideal) (m ((c : Thread nD τ).loc main_arg5)))) := (W6_of_ne m ρ c main_v29 (by decide)).trans (nrm5 m ρ c)

theorem b1_4 : W4 m ρ c (Proc.devRef .tc main_arg2) = (m ((c : Thread nD τ).loc main_arg2)) :=
  (W4_of_ne m ρ c main_arg2 (by decide)).trans (pre_arg2 (W0 m ρ c))
theorem w2_5 : W5 m ρ c (Proc.devRef .tc main_arg3) = (m ((c : Thread nD τ).loc main_arg3)) :=
  (mid1_arg3 (W4 m ρ c)).trans ((W4_of_ne m ρ c main_arg3 (by decide)).trans (pre_arg3 (W0 m ρ c)))
theorem b2_6 : W6 m ρ c (Proc.devRef .tc main_arg4) = (m ((c : Thread nD τ).loc main_arg4)) :=
  (W6_of_ne m ρ c main_arg4 (by decide)).trans ((mid1_arg4 (W4 m ρ c)).trans
    ((W4_of_ne m ρ c main_arg4 (by decide)).trans (pre_arg4 (W0 m ρ c))))

/-! ## The three regions' outputs -/

/-- Region 0 leaves `x · w1`. -/
theorem out0 : W4 m ρ c (Proc.devRef .tc main_v30) = prod (m ((c : Thread nD τ).loc main_arg0)) (m ((c : Thread nD τ).loc main_arg1)) :=
  ((W4_arr m ρ c 2).trans (final0 (V3 m ρ) c)).trans
    (congrArg₂ prod (pre_arg0 (W0 m ρ c)) (pre_arg1 (W0 m ρ c)))

/-- Region 1 reads the propagated `x · w1` … -/
theorem in1 : W5 m ρ c (Proc.devRef .tc main_v43) = Cert.Gcn.spread (F := Ideal) (Cert.Gcn.srcs (F := Ideal) (m ((c : Thread nD τ).loc main_arg5))) (Cert.Gcn.tgts (F := Ideal) (m ((c : Thread nD τ).loc main_arg5))) (Cert.Gcn.coef (F := Ideal) (Cert.Gcn.srcs (F := Ideal) (m ((c : Thread nD τ).loc main_arg5))) (Cert.Gcn.tgts (F := Ideal) (m ((c : Thread nD τ).loc main_arg5)))) (prod (m ((c : Thread nD τ).loc main_arg0)) (m ((c : Thread nD τ).loc main_arg1))) := by
  refine (mid1_spread (W4 m ρ c)).trans ?_
  rw [row4 m ρ c, col4 m ρ c, nrm4 m ρ c, out0 m ρ c]

/-- … and the first bias as a row. -/
theorem bias1 (q : Fin 64) : V5 m ρ c main_v44 (ix2 (0 : Fin 1) q) = ((m ((c : Thread nD τ).loc main_arg2)) : S64.Idx → EReal) (ix1 q) :=
  (mid1_bias (W4 m ρ c) q).trans (congrFun (b1_4 m ρ c) (ix1 q))

/-- Region 1 leaves the first layer times `w2`. -/
theorem out1 : W6 m ρ c (Proc.devRef .tc main_v45) = prod (Cert.Gcn.layer (Cert.Gcn.srcs (F := Ideal) (m ((c : Thread nD τ).loc main_arg5))) (Cert.Gcn.tgts (F := Ideal) (m ((c : Thread nD τ).loc main_arg5))) (Cert.Gcn.coef (F := Ideal) (Cert.Gcn.srcs (F := Ideal) (m ((c : Thread nD τ).loc main_arg5))) (Cert.Gcn.tgts (F := Ideal) (m ((c : Thread nD τ).loc main_arg5)))) (m ((c : Thread nD τ).loc main_arg0)) (m ((c : Thread nD τ).loc main_arg1)) (m ((c : Thread nD τ).loc main_arg2))) (m ((c : Thread nD τ).loc main_arg3)) := by
  refine ((W6_arr m ρ c 3).trans (final1 (V5 m ρ) c (m ((c : Thread nD τ).loc main_arg2)) (bias1 m ρ c))).trans ?_
  refine congrArg₂ prod ?_ (w2_5 m ρ c)
  exact congrArg (fun a => biasRelu a (m ((c : Thread nD τ).loc main_arg2))) (in1 m ρ c)

/-- Region 2 reads the propagated output of region 1 … -/
theorem in2 : W7 m ρ c (Proc.devRef .tc main_v58) = Cert.Gcn.spread (F := Ideal) (Cert.Gcn.srcs (F := Ideal) (m ((c : Thread nD τ).loc main_arg5))) (Cert.Gcn.tgts (F := Ideal) (m ((c : Thread nD τ).loc main_arg5))) (Cert.Gcn.coef (F := Ideal) (Cert.Gcn.srcs (F := Ideal) (m ((c : Thread nD τ).loc main_arg5))) (Cert.Gcn.tgts (F := Ideal) (m ((c : Thread nD τ).loc main_arg5)))) (prod (Cert.Gcn.layer (Cert.Gcn.srcs (F := Ideal) (m ((c : Thread nD τ).loc main_arg5))) (Cert.Gcn.tgts (F := Ideal) (m ((c : Thread nD τ).loc main_arg5))) (Cert.Gcn.coef (F := Ideal) (Cert.Gcn.srcs (F := Ideal) (m ((c : Thread nD τ).loc main_arg5))) (Cert.Gcn.tgts (F := Ideal) (m ((c : Thread nD τ).loc main_arg5)))) (m ((c : Thread nD τ).loc main_arg0)) (m ((c : Thread nD τ).loc main_arg1)) (m ((c : Thread nD τ).loc main_arg2))) (m ((c : Thread nD τ).loc main_arg3))) := by
  refine (mid2_spread (W6 m ρ c)).trans ?_
  rw [row6 m ρ c, col6 m ρ c, nrm6 m ρ c, out1 m ρ c]

/-- … and the second bias as a row. -/
theorem bias2 (q : Fin 64) : V7 m ρ c main_v59 (ix2 (0 : Fin 1) q) = ((m ((c : Thread nD τ).loc main_arg4)) : S64.Idx → EReal) (ix1 q) :=
  (mid2_bias (W6 m ρ c) q).trans (congrFun (b2_6 m ρ c) (ix1 q))

/-- Region 2 leaves the two layers: the result buffer at the last boundary is `spec` of the arguments. -/
theorem result : W8 m ρ c (Proc.devRef .tc main_v60) = Cert.Gcn.spec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine ((W8_arr m ρ c 2).trans (final2 (V7 m ρ) c (m ((c : Thread nD τ).loc main_arg4)) (bias2 m ρ c))).trans ?_
  exact congrArg (fun a => biasRelu a (m ((c : Thread nD τ).loc main_arg4))) (in2 m ρ c)

/-! ## The run -/

-- the launch theorem's implicit arguments are found by unifying its conclusion with this one, which takes unfolding
-- plain definitions in a metavariable's type
set_option backward.isDefEq.respectTransparency.types false in
/-- Every weakly fair execution of the kernel program terminates, nothing faulting, with the result buffer at `spec` of
    the argument arrays and the argument arrays as launched: the regions' launch over the program's segments, the last
    thread state read against the final state, the result by `result` and each argument by its walk back to the launch. -/
theorem run : θ_run defs (onTc (τ := τ) (main (F := Ideal))) ⟨m, fun _ => 0, ρ⟩ (fun r => ∀ c : Dev nD,
      r.2.mem ((c.tc : Thread nD τ).loc main_v60) = Cert.Gcn.spec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨(h c _ (mem_uc main_v60 (by decide))).trans (result m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.Gcn.Kern

end
-- ==== Proof.lean ====
/-
  Two graph-convolution layers computed by three tiled kernels, against the same two layers computed on the host.

  Both programs take node features `x : [50000, 64]`, two weight matrices and two bias vectors, and an edge list
  `[2, 800000]`. Both add a self loop per node, compute each node's degree, and give the pair (source, target) the
  coefficient `dinv source · dinv target` with `dinv` the inverse square root of the degree (zero where the degree is not
  positive). A layer is `relu (propagate (h · w) + b)`, where `propagate` gathers rows at the sources, scales them by the
  coefficients and adds them into the targets; the result is two layers.

  The kernel program computes the degree, the coefficients and both propagations with the very host operations the
  reference uses, in the same order; it differs only in computing `x · w1`, then `relu (· + b1) · w2`, then `relu (· + b2)`
  in three kernels, each over 25 blocks of 2000 rows, with the matrix operands rounded to a narrower format before the
  product. At the ideal values a rounding is the identity, a product into a zero accumulator is the plain product, a
  row of a product depends on the left operand through that row only, and the blocks tile the rows: so each kernel's
  output array is the whole-array function the reference applies (`Region0`, `Region1`, `Region2`), the host stretches
  between them are the shared definitions (`KernelHost`), and both programs end at `Cert.Gcn.spec` of their arguments
  (`KernelRun`, `RefSide`). No step moves a factor across a sum or cancels anything, so the inputs' finiteness is never
  used. The idealization rewrote no operation of the kernel, so `preserves` has nothing to state.
-/
import proofs.«181508_j91216515432980_1_alg».proof.Defs
import proofs.«181508_j91216515432980_1_alg».proof.Proof.Gen.Kernel
import proofs.«181508_j91216515432980_1_alg».proof.Proof.Gen.Kernel.Skeleton
import proofs.«181508_j91216515432980_1_alg».proof.Proof.Gen.Kernel.Launch
import proofs.«181508_j91216515432980_1_alg».proof.Proof.Gen.Kernel.Points
import proofs.«181508_j91216515432980_1_alg».proof.Proof.Gen.Kernel.Frame
import proofs.«181508_j91216515432980_1_alg».proof.Proof.Gen.KernelIdeal
import proofs.«181508_j91216515432980_1_alg».proof.Proof.Gen.KernelIdeal.Skeleton
import proofs.«181508_j91216515432980_1_alg».proof.Proof.Gen.KernelIdeal.Launch
import proofs.«181508_j91216515432980_1_alg».proof.Proof.Gen.KernelIdeal.Points
import proofs.«181508_j91216515432980_1_alg».proof.Proof.Gen.KernelIdeal.Frame
import proofs.«181508_j91216515432980_1_alg».proof.Proof.Gen.ReferenceIdeal
import proofs.«181508_j91216515432980_1_alg».proof.Proof.Gen.Pre_finite_inputs
import proofs.«181508_j91216515432980_1_alg».proof.Proof.RefRunP
import proofs.«181508_j91216515432980_1_alg».proof.Proof.RefSide
import proofs.«181508_j91216515432980_1_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with their result at `Cert.Gcn.spec` of their argument arrays, which agree. -/
theorem algebraic : Cert.algebraic_KernelIdeal_ReferenceIdeal := by
  intro m ρ m' ρ' _ hagree
  refine ⟨fun c => Cert.Gcn.spec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), Cert.Gcn.Kern.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5⟩ := hagree c
  rw [Cert.Gcn.Ref.res_eq_spec m' c, h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
